-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 72
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x256, .f32⟩
  | .hbm, ⟨39, _⟩ => ⟨S128x256, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S256x128, .f32⟩
  | .hbm, ⟨69, _⟩ => ⟨S256x128, .f32⟩
  | .hbm, ⟨70, _⟩ => ⟨S1x128, .f32⟩
  | .hbm, ⟨71, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S128x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S256x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S256x128, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result array named.
  @main is eight segments: three stretches of host operations, the first layer's pallas_call, three more stretches, the
  second layer's pallas_call. Every weakly fair execution terminates without a fault, and at the end every buffer of the
  TensorCore holds the last boundary's contents `W8`: in particular the result buffer holds `W8` at the result, and
  each argument holds what it was launched with.
-/
import proofs.«137551_j1090921693298_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_named : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Run

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.SageLayer.lean ====
/-
  One layer of the graph convolution as a function of its five operand arrays, entry by entry on the extended reals.
  For an N × K matrix `A` (the mean of each node's in-neighbours' features), the N × K matrix `X` of the nodes' own
  features, two K × M weight matrices `WL`, `WR` and a bias row `b`, entry (i, j) of `A·WL + X·WR + b` is
      (Σ_k A(i,k)·WL(k,j)) + (Σ_k X(i,k)·WR(k,j)) + b(j).
  One program adds the bias last, the other adds it before the second product, ((Σ A·WL) + b) + Σ X·WR: the two
  groupings are one extended real because addition there is commutative and associative — no entry need be finite.
  The first layer is followed by the maximum with zero; the zero is kept as the word both programs print.
-/
import Idealize.ShloMosaic.PureOps.Ideal.Laws
import Idealize.ShloMosaic.Lib.ValueIdx

noncomputable section

open scoped BigOperators

namespace Cert.Sage

open Idealize.ShloMosaic Idealize.ShloMosaic.ValueIdx

variable {N K M : Nat}

/-- Entry (i, j) of `A·WL + X·WR + b`, the bias added last. -/
def lin (A X : FVec Ideal ⟨2, ![N, K]⟩ .f32) (WL WR : FVec Ideal ⟨2, ![K, M]⟩ .f32) (b : Fin M → EReal)
    (i : Fin N) (j : Fin M) : EReal :=
  (∑ k : Fin K, A (ix2 i k) * WL (ix2 k j)) + (∑ k : Fin K, X (ix2 i k) * WR (ix2 k j)) + b j

/-- The same entry with the bias added before the second product. -/
theorem bias_first (A X : FVec Ideal ⟨2, ![N, K]⟩ .f32) (WL WR : FVec Ideal ⟨2, ![K, M]⟩ .f32) (b : Fin M → EReal)
    (i : Fin N) (j : Fin M) :
    ((∑ k : Fin K, A (ix2 i k) * WL (ix2 k j)) + b j) + (∑ k : Fin K, X (ix2 i k) * WR (ix2 k j))
      = lin A X WL WR b i j :=
  add_right_comm _ _ _

/-- The layer's whole result array. -/
def layer (A X : FVec Ideal ⟨2, ![N, K]⟩ .f32) (WL WR : FVec Ideal ⟨2, ![K, M]⟩ .f32) (b : Fin M → EReal) :
    FVec Ideal ⟨2, ![N, M]⟩ .f32 :=
  fun i => lin A X WL WR b (i 0) (i 1)

/-- The layer followed by the maximum with zero. -/
def layerRelu (A X : FVec Ideal ⟨2, ![N, K]⟩ .f32) (WL WR : FVec Ideal ⟨2, ![K, M]⟩ .f32) (b : Fin M → EReal) :
    FVec Ideal ⟨2, ![N, M]⟩ .f32 :=
  fun i => max (lin A X WL WR b (i 0) (i 1)) (Ideal.ofBits .f32 0x00000000#32)

theorem layer_apply (A X : FVec Ideal ⟨2, ![N, K]⟩ .f32) (WL WR : FVec Ideal ⟨2, ![K, M]⟩ .f32) (b : Fin M → EReal)
    (i : Fin N) (j : Fin M) : layer A X WL WR b (ix2 i j) = lin A X WL WR b i j := rfl

theorem layerRelu_apply (A X : FVec Ideal ⟨2, ![N, K]⟩ .f32) (WL WR : FVec Ideal ⟨2, ![K, M]⟩ .f32) (b : Fin M → EReal)
    (i : Fin N) (j : Fin M) :
    layerRelu A X WL WR b (ix2 i j) = max (lin A X WL WR b i j) (Ideal.ofBits .f32 0x00000000#32) := rfl

end Cert.Sage

end
-- ==== Proof.KernelBody.lean ====
/-
  What each kernel body stores, read at an entry of its block, on the extended reals.
  The body loads a block of `A` and of `X` (2000 rows each), the two whole weight matrices and the 1 × M bias block,
  changes formats (the identity here), takes the two matrix products into zero accumulators, adds them, adds the bias
  row broadcast over the rows, and (first layer only) takes the maximum with zero. At (p, q) of the block that is
  `lin` of the loaded blocks — the sum over k of A(p,k)·WL(k,q), plus the same for X and WR, plus b(0,q).
-/
import proofs.«137551_j1090921693298_1_alg».proof.Proof.Gen.KernelIdeal.Skeleton
import proofs.«137551_j1090921693298_1_alg».proof.Proof.LibPlainMatmul
import proofs.«137551_j1090921693298_1_alg».proof.Proof.SageLayer
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx
open Idealize.ShloMosaic.PlainMatmul Cert.Sage

/-- A 1 × 256 block broadcast over 2000 rows reads its column. -/
theorem bias_rows0 (x4 : Vec Ideal S1x256 .f32) (p : Fin 2000) (q : Fin 256) :
    broadcastTo S2000x256 x4 broadcasts_S1x256_S2000x256 (ix2 p q) = x4 (ix2 0 q) := by
  refine broadcastTo_apply x4 _ (ix2 p q) (ix2 0 q) (fun a => ?_)
  match a with
  | ⟨0, _⟩ => rfl
  | ⟨1, _⟩ => rfl

/-- A 1 × 128 block broadcast over 2000 rows reads its column. -/
theorem bias_rows1 (x4 : Vec Ideal S1x128 .f32) (p : Fin 2000) (q : Fin 128) :
    broadcastTo S2000x128 x4 broadcasts_S1x128_S2000x128 (ix2 p q) = x4 (ix2 0 q) := by
  refine broadcastTo_apply x4 _ (ix2 p q) (ix2 0 q) (fun a => ?_)
  match a with
  | ⟨0, _⟩ => rfl
  | ⟨1, _⟩ => rfl

/-- The first layer's stored block at (p, q). -/
theorem pay0_apply (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q)
      = max (lin x0 x1 x2 x3 (fun j => x4 (ix2 0 j)) p q) (Ideal.ofBits .f32 0x00000000#32) := by
  unfold k0_pay1
  simp only [shapeCast_self]
  rw [maximumf_apply, addf_apply, addf_apply, bias_rows0]
  show max ((matmul (F := Ideal) (DotDims.plain 2000 128 256) none _ _ (constant ⟨2, ![2000, 256]⟩ .f32 0x00000000#32) (ix2 p q)
      + matmul (F := Ideal) (DotDims.plain 2000 128 256) none _ _ (constant ⟨2, ![2000, 256]⟩ .f32 0x00000000#32) (ix2 p q)
      + x4 (ix2 0 q) : EReal)) _ = _
  rw [plainMatmul_apply, plainMatmul_apply]
  rfl

/-- The second layer's stored block at (p, q). -/
theorem pay1_apply (x0 x1 : Vec Ideal S2000x256 .f32) (x2 x3 : Vec Ideal S256x128 .f32) (x4 : Vec Ideal S1x128 .f32)
    (p : Fin 2000) (q : Fin 128) :
    k1_pay1 (F := Ideal) x0 x1 x2 x3 x4 (ix2 p q) = lin x0 x1 x2 x3 (fun j => x4 (ix2 0 j)) p q := by
  unfold k1_pay1
  simp only [shapeCast_self]
  rw [addf_apply, addf_apply, bias_rows1]
  show (matmul (F := Ideal) (DotDims.plain 2000 256 128) none _ _ (constant ⟨2, ![2000, 128]⟩ .f32 0x00000000#32) (ix2 p q)
      + matmul (F := Ideal) (DotDims.plain 2000 256 128) none _ _ (constant ⟨2, ![2000, 128]⟩ .f32 0x00000000#32) (ix2 p q)
      + x4 (ix2 0 q) : EReal) = _
  rw [plainMatmul_apply, plainMatmul_apply]
  rfl

end Cert.KernelIdeal.Body

end
-- ==== Proof.KernelBlocks0.lean ====
/-
  The first layer's result array after its 25 grid points, at any contents `V` the region is entered with.
  Point t loads rows 2000·t … 2000·t + 1999 of `A` and of `X` and the whole of both weight matrices and of the bias
  block, and writes rows 2000·t … 2000·t + 1999 of the result. So what point t writes back is block t of ONE whole-array
  function — `layerRelu` of the five operand arrays — and, the 25 blocks tiling the 50000 rows, the array ends holding
  that function.
-/
import proofs.«137551_j1090921693298_1_alg».proof.Proof.Gen.KernelIdeal.Frame
import proofs.«137551_j1090921693298_1_alg».proof.Proof.KernelBody
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps of the first call, decided over its 25 points: the row-blocked windows sit at block t,
    the weights and the bias at block 0. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first layer's whole result, of the five operand arrays as the region finds them. -/
def whole0 (c : Dev nD) : Buf (Elt Ideal) ((c : Thread nD τ).loc main_v25) :=
  layerRelu (N := 50000) (K := 128) (M := 256) (V c main_v21) (V c main_arg0) (V c main_v22) (V c main_v23)
    (fun j => (V c main_v24 : S1x256.Idx → EReal) (ix2 0 j))

/-- Row p of point t's block of `A` is row 2000·t + p of `A`. -/
theorem rowsA0 (c : Dev nD) (t : Fin cfg0.N) (p : Fin 2000) (k : Fin 128) (r : Fin 50000)
    (hr : r.val = t.val * 2000 + p.val) :
    (iblk0 V c 0 t : S2000x128.Idx → EReal) (ix2 p k) = (V c main_v21 : S50000x128.Idx → EReal) (ix2 r k) := by
  obtain ⟨e0, e1, -⟩ := index0 t
  unfold iblk0
  rw [View.read_apply]
  show (V c main_v21 : S50000x128.Idx → EReal) _ = _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of point t's block of `X` is row 2000·t + p of `X`. -/
theorem rowsX0 (c : Dev nD) (t : Fin cfg0.N) (p : Fin 2000) (k : Fin 128) (r : Fin 50000)
    (hr : r.val = t.val * 2000 + p.val) :
    (iblk0 V c 1 t : S2000x128.Idx → EReal) (ix2 p k) = (V c main_arg0 : S50000x128.Idx → EReal) (ix2 r k) := by
  obtain ⟨-, -, e0, e1, -⟩ := index0 t
  unfold iblk0
  rw [View.read_apply]
  show (V c main_arg0 : S50000x128.Idx → EReal) _ = _
  refine congrArg _ (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- Every point's block of the left weights is the whole matrix. -/
theorem wholeWL0 (c : Dev nD) (t : Fin cfg0.N) (k : Fin 128) (q : Fin 256) :
    (iblk0 V c 2 t : S128x256.Idx → EReal) (ix2 k q) = (V c main_v22 : S128x256.Idx → EReal) (ix2 k q) := by
  obtain ⟨-, -, -, -, e0, e1, -⟩ := index0 t
  unfold iblk0
  rw [View.read_apply]
  show (V c main_v22 : S128x256.Idx → EReal) _ = _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- Every point's block of the right weights is the whole matrix. -/
theorem wholeWR0 (c : Dev nD) (t : Fin cfg0.N) (k : Fin 128) (q : Fin 256) :
    (iblk0 V c 3 t : S128x256.Idx → EReal) (ix2 k q) = (V c main_v23 : S128x256.Idx → EReal) (ix2 k q) := by
  obtain ⟨-, -, -, -, -, -, e0, e1, -⟩ := index0 t
  unfold iblk0
  rw [View.read_apply]
  show (V c main_v23 : S128x256.Idx → EReal) _ = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- Every point's block of the bias is the whole 1 × 256 row. -/
theorem wholeB0 (c : Dev nD) (t : Fin cfg0.N) (q : Fin 256) :
    (iblk0 V c 4 t : S1x256.Idx → EReal) (ix2 0 q) = (V c main_v24 : S1x256.Idx → EReal) (ix2 0 q) := by
  obtain ⟨-, -, -, -, -, -, -, -, e0, e1, -⟩ := index0 t
  unfold iblk0
  rw [View.read_apply]
  show (V c main_v24 : S1x256.Idx → EReal) _ = _
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-- Entry (p, q) of point t's result block sits at row 2000·t + p, column q of the result. -/
theorem rowsOut0 (t : Fin cfg0.N) (p : Fin 2000) (q : Fin 256) (r : Fin 50000) (hr : r.val = t.val * 2000 + p.val) :
    ((cfg0.win 5).blk t).view.emb (ix2 p q) = (ix2 r q : S50000x256.Idx) := by
  obtain ⟨-, -, -, -, -, -, -, -, -, -, e0, e1⟩ := index0 t
  refine funext fun a => Fin.ext ?_
  match a with
  | ⟨0, _⟩ => show win0_5.index t (0 : Fin 2) * 2000 + 1 * p.val = r.val; rw [e0, hr]; omega
  | ⟨1, _⟩ => show win0_5.index t (1 : Fin 2) * 256 + 1 * q.val = q.val; rw [e1]; omega

/-- What point t writes back is block t of `whole0`. -/
theorem flushed0 (c : Dev nD) (t : Fin cfg0.N) :
    (dat0 V c).flushed 5 t = ((cfg0.win 5).blk t).view.read (Elt Ideal) (whole0 V c) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x256) zeros2,
    View.ld_unit_zero (S := S1x256) zeros2]
  funext y
  obtain ⟨p, q, rfl⟩ : ∃ (p : Fin 2000) (q : Fin 256), y = ix2 p q := ⟨y 0, y 1, eq_ix2 y⟩
  have hlt : t.val * 2000 + p.val < 50000 := by
    have h1 : t.val < cfg0.N := t.isLt
    have hN : cfg0.N = 25 := N_0
    have h2 : p.val < 2000 := p.isLt
    omega
  rw [View.read_apply, rowsOut0 t p q ⟨t.val * 2000 + p.val, hlt⟩ rfl]
  show k0_pay1 (F := Ideal) (iblk0 V c 0 t) (iblk0 V c 1 t) (iblk0 V c 2 t) (iblk0 V c 3 t) (iblk0 V c 4 t) (ix2 p q) = _
  refine (Body.pay0_apply (iblk0 V c 0 t) (iblk0 V c 1 t) (iblk0 V c 2 t) (iblk0 V c 3 t) (iblk0 V c 4 t) p q).trans ?_
  unfold whole0
  rw [layerRelu_apply]
  unfold lin
  refine congrArg (fun z => max z (Ideal.ofBits .f32 0x00000000#32)) ?_
  refine congrArg₂ (· + ·) (congrArg₂ (· + ·) (Finset.sum_congr rfl fun k _ => ?_) (Finset.sum_congr rfl fun k _ => ?_)) ?_
  · exact congrArg₂ (· * ·) (rowsA0 V c t p k _ rfl) (wholeWL0 V c t k q)
  · exact congrArg₂ (· * ·) (rowsX0 V c t p k _ rfl) (wholeWR0 V c t k q)
  · exact wholeB0 V c t q

/-- An index of the result is in point t's block iff each coordinate is in the block's range on its axis. -/
theorem mem_block0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v25).slice (win0_5.rect t)).set ↔ _
  rw [View.set_slice_whole, Rect.mem_set_unit]
  exact Iff.rfl

/-- Row r of the result is written by point r / 2000. -/
theorem covered0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have ht : (i 0).val / 2000 < cfg0.N := by rw [hN]; omega
  refine ⟨⟨(i 0).val / 2000, ht⟩, flush0_5 _, ?_⟩
  rw [mem_block0]
  obtain ⟨-, -, -, -, -, -, -, -, -, -, e0, e1⟩ := index0 ⟨(i 0).val / 2000, ht⟩
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    rw [e1]; omega

/-- The first layer's result array after the region. -/
theorem final0 (c : Dev nD) : (dat0 V c).arrAt 5 cfg0.N = whole0 V c :=
  (dat0 V c).arrAt_eq_of_cover 5 (whole0 V c) (fun t _ => flushed0 V c t) covered0

end Cert.KernelIdeal.Blocks

end
-- ==== Proof.KernelBlocks1.lean ====
/-
  The second layer's result array after its 25 grid points, at any contents `V` the region is entered with.
  Point t loads rows 2000·t … 2000·t + 1999 of the aggregated and of the own hidden features and the whole of both weight
  matrices and of the bias block, and writes rows 2000·t … 2000·t + 1999 of the result: block t of ONE whole-array
  function — `layer` of the five operand arrays — and, the 25 blocks tiling the 50000 rows, the array ends holding it.
-/
import proofs.«137551_j1090921693298_1_alg».proof.Proof.Gen.KernelIdeal.Frame
import proofs.«137551_j1090921693298_1_alg».proof.Proof.KernelBody
import proofs.«137551_j1090921693298_1_alg».proof.Proof.KernelBlocks0
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The printed index maps of the second call, decided over its 25 points: the row-blocked windows sit at block t,
    the weights and the bias at block 0. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The second layer's whole result, of the five operand arrays as the region finds them. -/
def whole1 (c : Dev nD) : Buf (Elt Ideal) ((c : Thread nD τ).loc main_v47) :=
  layer (N := 50000) (K := 256) (M := 128) (V c main_v43) (V c main_v25) (V c main_v44) (V c main_v45)
    (fun j => (V c main_v46 : S1x128.Idx → EReal) (ix2 0 j))

/-- Row p of point t's block of the aggregated features is row 2000·t + p of that array. -/
theorem rowsA1 (c : Dev nD) (t : Fin cfg1.N) (p : Fin 2000) (k : Fin 256) (r : Fin 50000)
    (hr : r.val = t.val * 2000 + p.val) :
    (iblk1 V c 0 t : S2000x256.Idx → EReal) (ix2 p k) = (V c main_v43 : S50000x256.Idx → EReal) (ix2 r k) := by
  obtain ⟨e0, e1, -⟩ := index1 t
  unfold iblk1
  rw [View.read_apply]
  show (V c main_v43 : S50000x256.Idx → EReal) _ = _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row p of point t's block of the own features is row 2000·t + p of that array. -/
theorem rowsX1 (c : Dev nD) (t : Fin cfg1.N) (p : Fin 2000) (k : Fin 256) (r : Fin 50000)
    (hr : r.val = t.val * 2000 + p.val) :
    (iblk1 V c 1 t : S2000x256.Idx → EReal) (ix2 p k) = (V c main_v25 : S50000x256.Idx → EReal) (ix2 r k) := by
  obtain ⟨-, -, e0, e1, -⟩ := index1 t
  unfold iblk1
  rw [View.read_apply]
  show (V c main_v25 : S50000x256.Idx → EReal) _ = _
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- Every point's block of the left weights is the whole matrix. -/
theorem wholeWL1 (c : Dev nD) (t : Fin cfg1.N) (k : Fin 256) (q : Fin 128) :
    (iblk1 V c 2 t : S256x128.Idx → EReal) (ix2 k q) = (V c main_v44 : S256x128.Idx → EReal) (ix2 k q) := by
  obtain ⟨-, -, -, -, e0, e1, -⟩ := index1 t
  unfold iblk1
  rw [View.read_apply]
  show (V c main_v44 : S256x128.Idx → EReal) _ = _
  refine congrArg _ (funext fun a => Fin.ext ?_)
  match a with
  | ⟨0, _⟩ => show win1_2.index t (0 : Fin 2) * 256 + 1 * k.val = k.val; rw [e0]; omega
  | ⟨1, _⟩ => show win1_2.index t (1 : Fin 2) * 128 + 1 * q.val = q.val; rw [e1]; omega

/-- Every point's block of the right weights is the whole matrix. -/
theorem wholeWR1 (c : Dev nD) (t : Fin cfg1.N) (k : Fin 256) (q : Fin 128) :
    (iblk1 V c 3 t : S256x128.Idx → EReal) (ix2 k q) = (V c main_v45 : S256x128.Idx → EReal) (ix2 k q) := by
  obtain ⟨-, -, -, -, -, -, e0, e1, -⟩ := index1 t
  unfold iblk1
  rw [View.read_apply]
  show (V c main_v45 : S256x128.Idx → EReal) _ = _
  refine congrArg _ (funext fun a => Fin.ext ?_)
  match a with
  | ⟨0, _⟩ => show win1_3.index t (0 : Fin 2) * 256 + 1 * k.val = k.val; rw [e0]; omega
  | ⟨1, _⟩ => show win1_3.index t (1 : Fin 2) * 128 + 1 * q.val = q.val; rw [e1]; omega

/-- Every point's block of the bias is the whole 1 × 128 row. -/
theorem wholeB1 (c : Dev nD) (t : Fin cfg1.N) (q : Fin 128) :
    (iblk1 V c 4 t : S1x128.Idx → EReal) (ix2 0 q) = (V c main_v46 : S1x128.Idx → EReal) (ix2 0 q) := by
  obtain ⟨-, -, -, -, -, -, -, -, e0, e1, -⟩ := index1 t
  unfold iblk1
  rw [View.read_apply]
  show (V c main_v46 : S1x128.Idx → EReal) _ = _
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- Entry (p, q) of point t's result block sits at row 2000·t + p, column q of the result. -/
theorem rowsOut1 (t : Fin cfg1.N) (p : Fin 2000) (q : Fin 128) (r : Fin 50000) (hr : r.val = t.val * 2000 + p.val) :
    ((cfg1.win 5).blk t).view.emb (ix2 p q) = (ix2 r q : S50000x128.Idx) := by
  obtain ⟨-, -, -, -, -, -, -, -, -, -, e0, e1⟩ := index1 t
  refine funext fun a => Fin.ext ?_
  match a with
  | ⟨0, _⟩ => show win1_5.index t (0 : Fin 2) * 2000 + 1 * p.val = r.val; rw [e0, hr]; omega
  | ⟨1, _⟩ => show win1_5.index t (1 : Fin 2) * 128 + 1 * q.val = q.val; rw [e1]; omega

/-- What point t writes back is block t of `whole1`. -/
theorem flushed1 (c : Dev nD) (t : Fin cfg1.N) :
    (dat1 V c).flushed 5 t = ((cfg1.win 5).blk t).view.read (Elt Ideal) (whole1 V c) := by
  show (cfg1.win 5).cut (grid1.coords t) ((dat1 V c).after 5 t) = _
  rw [after1_5]
  unfold out1_5
  rw [View.canon_unit_zero zeros2]
  simp only [View.ld_unit_zero (S := S2000x256) zeros2, View.ld_unit_zero (S := S256x128) zeros2,
    View.ld_unit_zero (S := S1x128) zeros2]
  funext y
  obtain ⟨p, q, rfl⟩ : ∃ (p : Fin 2000) (q : Fin 128), y = ix2 p q := ⟨y 0, y 1, eq_ix2 y⟩
  have hlt : t.val * 2000 + p.val < 50000 := by
    have h1 : t.val < cfg1.N := t.isLt
    have hN : cfg1.N = 25 := N_1
    have h2 : p.val < 2000 := p.isLt
    omega
  rw [View.read_apply, rowsOut1 t p q ⟨t.val * 2000 + p.val, hlt⟩ rfl]
  show k1_pay1 (F := Ideal) (iblk1 V c 0 t) (iblk1 V c 1 t) (iblk1 V c 2 t) (iblk1 V c 3 t) (iblk1 V c 4 t) (ix2 p q) = _
  refine (Body.pay1_apply (iblk1 V c 0 t) (iblk1 V c 1 t) (iblk1 V c 2 t) (iblk1 V c 3 t) (iblk1 V c 4 t) p q).trans ?_
  unfold whole1
  rw [layer_apply]
  unfold lin
  refine congrArg₂ (· + ·) (congrArg₂ (· + ·) (Finset.sum_congr rfl fun k _ => ?_) (Finset.sum_congr rfl fun k _ => ?_)) ?_
  · exact congrArg₂ (· * ·) (rowsA1 V c t p k _ rfl) (wholeWL1 V c t k q)
  · exact congrArg₂ (· * ·) (rowsX1 V c t p k _ rfl) (wholeWR1 V c t k q)
  · exact wholeB1 V c t q

/-- An index of the result is in point t's block iff each coordinate is in the block's range on its axis. -/
theorem mem_block1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v47).slice (win1_5.rect t)).set ↔ _
  rw [View.set_slice_whole, Rect.mem_set_unit]
  exact Iff.rfl

/-- Row r of the result is written by point r / 2000. -/
theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  have ht : (i 0).val / 2000 < cfg1.N := by rw [hN]; omega
  refine ⟨⟨(i 0).val / 2000, ht⟩, flush1_5 _, ?_⟩
  rw [mem_block1]
  obtain ⟨-, -, -, -, -, -, -, -, -, -, e0, e1⟩ := index1 ⟨(i 0).val / 2000, ht⟩
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]; omega

/-- The second layer's result array after the region. -/
theorem final1 (c : Dev nD) : (dat1 V c).arrAt 5 cfg1.N = whole1 V c :=
  (dat1 V c).arrAt_eq_of_cover 5 (whole1 V c) (fun t _ => flushed1 V c t) covered1

end Cert.KernelIdeal.Blocks

end
-- ==== Proof.RefLayers.lean ====
/-
  The reference's two layers, read entry by entry on the extended reals.
  Each layer is a matrix product of the mean-aggregated features with the transposed left weights, plus the bias row
  broadcast over the nodes, plus the product of the nodes' own features with the transposed right weights; the first is
  followed by the maximum with zero. Entry (p, q) is therefore `lin` of the layer's operand arrays with the bias added
  before the second product, which is `lin` itself (addition of extended reals is commutative and associative).
  The aggregation stages (the gathers and segment sums, and the division by the clipped degree) are left as whole arrays.
-/
import proofs.«137551_j1090921693298_1_alg».proof.Proof.Gen.ReferenceIdeal.Read
import proofs.«137551_j1090921693298_1_alg».proof.Proof.SageLayer

noncomputable section

open scoped BigOperators

namespace Cert.ReferenceIdeal.Layers

open Cert.ReferenceIdeal Cert.ReferenceIdeal.Read Idealize.ShloMosaic Idealize.ShloMosaic.ValueIdx Cert.Sage

/-! ## Which entries each product and each bias broadcast reads -/

theorem left23 (p : Fin 50000) (q : Fin 256) (k : Fin 128) : lidx_main_v23 (ix2 p q) k = ix2 p k :=
  funext fun a => Fin.ext (by match a with | ⟨0, _⟩ => rfl | ⟨1, _⟩ => rfl)
theorem right23 (p : Fin 50000) (q : Fin 256) (k : Fin 128) : ridx_main_v23 (ix2 p q) k = ix2 k q :=
  funext fun a => Fin.ext (by match a with | ⟨0, _⟩ => rfl | ⟨1, _⟩ => rfl)
theorem left28 (p : Fin 50000) (q : Fin 256) (k : Fin 128) : lidx_main_v28 (ix2 p q) k = ix2 p k :=
  funext fun a => Fin.ext (by match a with | ⟨0, _⟩ => rfl | ⟨1, _⟩ => rfl)
theorem right28 (p : Fin 50000) (q : Fin 256) (k : Fin 128) : ridx_main_v28 (ix2 p q) k = ix2 k q :=
  funext fun a => Fin.ext (by match a with | ⟨0, _⟩ => rfl | ⟨1, _⟩ => rfl)
theorem bias25 (p : Fin 50000) (q : Fin 256) : idx_main_v24 (idx_main_v25 (ix2 p q)) = ix1 q :=
  funext fun a => Fin.ext (by match a with | ⟨0, _⟩ => rfl)

theorem left50 (p : Fin 50000) (q : Fin 128) (k : Fin 256) : lidx_main_v50 (ix2 p q) k = ix2 p k :=
  funext fun a => Fin.ext (by match a with | ⟨0, _⟩ => rfl | ⟨1, _⟩ => rfl)
theorem right50 (p : Fin 50000) (q : Fin 128) (k : Fin 256) : ridx_main_v50 (ix2 p q) k = ix2 k q :=
  funext fun a => Fin.ext (by match a with | ⟨0, _⟩ => rfl | ⟨1, _⟩ => rfl)
theorem left55 (p : Fin 50000) (q : Fin 128) (k : Fin 256) : lidx_main_v55 (ix2 p q) k = ix2 p k :=
  funext fun a => Fin.ext (by match a with | ⟨0, _⟩ => rfl | ⟨1, _⟩ => rfl)
theorem right55 (p : Fin 50000) (q : Fin 128) (k : Fin 256) : ridx_main_v55 (ix2 p q) k = ix2 k q :=
  funext fun a => Fin.ext (by match a with | ⟨0, _⟩ => rfl | ⟨1, _⟩ => rfl)
theorem bias52 (p : Fin 50000) (q : Fin 128) : idx_main_v51 (idx_main_v52 (ix2 p q)) = ix1 q :=
  funext fun a => Fin.ext (by match a with | ⟨0, _⟩ => rfl)

/-! ## The two layers -/

/-- The hidden features: the first layer of the aggregated and the own input features, then the maximum with zero. -/
theorem hidden (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v30 (F := Ideal) x0 x1 x2 x3 x4
      = layerRelu (N := 50000) (K := 128) (M := 256) (val_main_v21 (F := Ideal) x0 x1) x0 (val_main_v22 (F := Ideal) x2)
          (val_main_v27 (F := Ideal) x4) (fun j => x3 (ix1 j)) := by
  funext i
  obtain ⟨p, q, rfl⟩ : ∃ (p : Fin 50000) (q : Fin 256), i = ix2 p q := ⟨i 0, i 1, eq_ix2 i⟩
  rw [val_main_v30_apply, val_main_v29_apply, val_main_v26_apply, val_main_v23_apply, val_main_v28_apply,
    val_main_v25_apply, val_main_v24_apply, val_main_call1_v0_apply, val_main_call1_cst_apply, layerRelu_apply,
    ← bias_first]
  simp only [left23, right23, left28, right28, bias25]
  rfl

/-- The result: the second layer of the aggregated and the own hidden features. -/
theorem output (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) (x5 : (⟨S128x256, .f32⟩ : BufTy).Contents (Elt Ideal))
    (x6 : (⟨S128, .f32⟩ : BufTy).Contents (Elt Ideal)) (x7 : (⟨S128x256, .f32⟩ : BufTy).Contents (Elt Ideal)) :
    val_main_v56 (F := Ideal) x0 x1 x2 x3 x4 x5 x6 x7
      = layer (N := 50000) (K := 256) (M := 128) (val_main_v48 (F := Ideal) x0 x1 x2 x3 x4) (val_main_v30 (F := Ideal) x0 x1 x2 x3 x4)
          (val_main_v49 (F := Ideal) x5) (val_main_v54 (F := Ideal) x7) (fun j => x6 (ix1 j)) := by
  funext i
  obtain ⟨p, q, rfl⟩ : ∃ (p : Fin 50000) (q : Fin 128), i = ix2 p q := ⟨i 0, i 1, eq_ix2 i⟩
  rw [val_main_v56_apply, val_main_v53_apply, val_main_v50_apply, val_main_v55_apply, val_main_v52_apply,
    val_main_v51_apply, layer_apply, ← bias_first]
  simp only [left50, right50, left55, right55, bias52]
  rfl

/-! ## The second aggregation as a function of the hidden features -/

/-- The mean over each node's in-neighbours of an array of 256-feature rows: gather the rows at the edges' sources,
    sum them onto the edges' targets, divide each row by the node's in-degree clipped below at one. The edge list
    enters through the source and target index stages and the degree stage, which depend on it alone. -/
def neighbourMean256 (h : FVec Ideal S50000x256 .f32)
    (x1 : (⟨S2x800000, .i32⟩ : BufTy).Contents (Elt Ideal)) : FVec Ideal S50000x256 .f32 :=
  Host.divf (F := Ideal) (φ := .f32)
    (Host.scatterAdd (F := Ideal) (φ := .f32) scatter_S50000x256_S800000x1_S800000x256_1_0_0_1 (val_main_v38 (F := Ideal))
      (val_main_v39 (F := Ideal) x1)
      (Host.gather gather_S50000x256_S800000x1_S800000x256_1_0_n_n_0_1_1256 h (val_main_v36 (F := Ideal) x1)))
    (val_main_v47 (F := Ideal) x1)

/-- The reference aggregates its own hidden features. -/
theorem aggregated_hidden (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v48 (F := Ideal) x0 x1 x2 x3 x4 = neighbourMean256 (val_main_v30 (F := Ideal) x0 x1 x2 x3 x4) x1 := rfl

end Cert.ReferenceIdeal.Layers

end
-- ==== Proof.KernelEntry.lean ====
/-
  What each pallas_call of the idealized kernel finds in its operand arrays, in the reference's own vocabulary.
  Before the first call @main computes, from the node features and the edge list, the mean of each node's in-neighbours'
  features: the edges' sources (row 0 of the edge list, a negative index wrapped by the number of nodes) and targets (row 1);
  the rows gathered at the sources and summed onto the targets; each node's in-degree as the sum of ones onto the
  targets, clipped below at one; the quotient. It also transposes the two weight matrices and reshapes the bias to a row.
  The reference computes the same operations in the same order, so stage by stage the arrays are the reference's stages
  of the same arguments. Before the second call @main does the same with the first call's result in the place of the
  node features.
-/
import proofs.«137551_j1090921693298_1_alg».proof.Proof.Gen.KernelIdeal.Frame
import proofs.«137551_j1090921693298_1_alg».proof.Proof.RefLayers
import Idealize.ShloMosaic.Lib.StableHlo.Run
import Idealize.ShloMosaic.Lib.ValueIdx

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read
open Cert.ReferenceIdeal.Layers (neighbourMean256)

/-! ## The aggregation, stage by stage, as functions of the features and the edge list -/

section Stages

variable (x0 : FVec Ideal S50000x128 .f32) (h : FVec Ideal S50000x256 .f32) (x1 : IVec S2x800000 32)

/-- Row 0 of the edge list: the edges' sources as given. -/
def sourcesRaw : IVec S800000 32 :=
  shapeCast S800000 (extractStridedSlice S1x800000 ![0, 0] x1 slices_S2x800000_S1x800000_0_0) shapeCasts_S1x800000_S800000
/-- Row 1 of the edge list: the edges' targets. -/
def targets : IVec S800000 32 :=
  shapeCast S800000 (extractStridedSlice S1x800000 ![1, 0] x1 slices_S2x800000_S1x800000_1_0) shapeCasts_S1x800000_S800000
/-- The sources, a negative one counted from the end. -/
def sources : IVec S800000 32 :=
  select (cmpi .slt (sourcesRaw x1) (broadcastInDim S800000 ![] bcast_S_S800000 (constantI S_ 32 0#32)))
    (addi (sourcesRaw x1) (broadcastInDim S800000 ![] bcast_S_S800000 (constantI S_ 32 50000#32))) (sourcesRaw x1)
/-- Each node's in-degree: ones summed onto the targets. -/
def degree : FVec Ideal S50000 .f32 :=
  Host.scatterAdd (F := Ideal) scatter_S50000_S800000x1_S800000_n_0_0_1
    (broadcastInDim S50000 ![] bcast_S_S50000 (constant S_ .f32 0x00000000#32))
    (broadcastInDim S800000x1 ![0] bcast_S800000_S800000x1_0 (targets x1))
    (broadcastInDim S800000 ![] bcast_S_S800000 (constant S_ .f32 0x3F800000#32))
/-- The in-degree clipped below at one. -/
def degreeClipped : FVec Ideal S50000 .f32 :=
  maximumf (broadcastInDim S50000 ![] bcast_S_S50000 (id (constant (F := Ideal) S_ .f32 0x3F800000#32))) (degree x1)
/-- The mean of the in-neighbours' 128 input features. -/
def mean128 : FVec Ideal S50000x128 .f32 :=
  Host.divf
    (Host.scatterAdd (F := Ideal) scatter_S50000x128_S800000x1_S800000x128_1_0_0_1
      (broadcastInDim S50000x128 ![] bcast_S_S50000x128 (constant S_ .f32 0x00000000#32))
      (broadcastInDim S800000x1 ![0] bcast_S800000_S800000x1_0 (targets x1))
      (Host.gather gather_S50000x128_S800000x1_S800000x128_1_0_n_n_0_1_1128 x0
        (broadcastInDim S800000x1 ![0] bcast_S800000_S800000x1_0 (sources x1))))
    (broadcastInDim S50000x128 ![0, 1] bcast_S50000x1_S50000x128_0_1
      (broadcastInDim S50000x1 ![0] bcast_S50000_S50000x1_0 (degreeClipped x1)))
/-- The mean of the in-neighbours' 256 hidden features. -/
def mean256 : FVec Ideal S50000x256 .f32 :=
  Host.divf
    (Host.scatterAdd (F := Ideal) scatter_S50000x256_S800000x1_S800000x256_1_0_0_1
      (broadcastInDim S50000x256 ![] bcast_S_S50000x256 (constant S_ .f32 0x00000000#32))
      (broadcastInDim S800000x1 ![0] bcast_S800000_S800000x1_0 (targets x1))
      (Host.gather gather_S50000x256_S800000x1_S800000x256_1_0_n_n_0_1_1256 h
        (broadcastInDim S800000x1 ![0] bcast_S800000_S800000x1_0 (sources x1))))
    (broadcastInDim S50000x256 ![0, 1] bcast_S50000x1_S50000x256_0_1
      (broadcastInDim S50000x1 ![0] bcast_S50000_S50000x1_0 (degreeClipped x1)))

theorem sourcesRaw_eq : sourcesRaw x1 = val_main_v1 (F := Ideal) x1 := rfl
theorem targets_eq : targets x1 = val_main_v3 (F := Ideal) x1 := rfl
theorem sources_eq : sources x1 = val_main_v8 (F := Ideal) x1 := by
  unfold sources; rw [sourcesRaw_eq]; rfl
/-- The reference recomputes the wrapped sources for its second layer: the same array. -/
theorem sources_eq' : sources x1 = val_main_v35 (F := Ideal) x1 := by
  unfold sources; rw [sourcesRaw_eq]; rfl
theorem degree_eq : degree x1 = val_main_v17 (F := Ideal) x1 := by
  unfold degree; rw [targets_eq]; rfl
/-- … and the in-degree: the same array. -/
theorem degree_eq' : degree x1 = val_main_v44 (F := Ideal) x1 := by
  unfold degree; rw [targets_eq]; rfl
theorem degreeClipped_eq : degreeClipped x1 = val_main_v18 (F := Ideal) x1 := by
  unfold degreeClipped; rw [degree_eq]; rfl
theorem degreeClipped_eq' : degreeClipped x1 = val_main_v45 (F := Ideal) x1 := by
  unfold degreeClipped; rw [degree_eq']; rfl

/-- The first aggregation is the reference's. -/
theorem mean128_eq : mean128 x0 x1 = val_main_v21 (F := Ideal) x0 x1 := by
  unfold mean128; rw [targets_eq, sources_eq, degreeClipped_eq]; rfl

/-- The second aggregation is the reference's, as a function of the hidden features. -/
theorem mean256_eq : mean256 h x1 = neighbourMean256 h x1 := by
  unfold mean256; rw [targets_eq, sources_eq', degreeClipped_eq']; rfl

/-- A bias of 256 entries reshaped to one row reads its entry. -/
theorem bias_row256 (b : FVec Ideal S256 .f32) (j : Fin 256) :
    shapeCast S1x256 b shapeCasts_S256_S1x256 (ix2 0 j) = b (ix1 j) :=
  (shapeCast_addUnit_apply ![256] b shapeCasts_S256_S1x256 (ix2 0 j)).trans
    (congrArg b (funext fun a => by match a with | ⟨0, _⟩ => rfl))
/-- A bias of 128 entries reshaped to one row reads its entry. -/
theorem bias_row128 (b : FVec Ideal S128 .f32) (j : Fin 128) :
    shapeCast S1x128 b shapeCasts_S128_S1x128 (ix2 0 j) = b (ix1 j) :=
  (shapeCast_addUnit_apply ![128] b shapeCasts_S128_S1x128 (ix2 0 j)).trans
    (congrArg b (funext fun a => by match a with | ⟨0, _⟩ => rfl))

end Stages

/-! ## The operand arrays of the two calls -/

section Reads

variable (m : (ℓ : Loc nD τ sig) → Buf (Elt Ideal) ℓ) (ρ : Dev nD → PrngReg)

/-- The first clip of the in-degree is three plain operations: a copy of the bound, its broadcast, the maximum. -/
theorem clip0_plain : (hostOps0_1 : List (HloOp τ sig (Elt Ideal))) =
    [ StableHlo.unary main_cst_3 main_call0_v0 (id : (⟨S_, .f32⟩ : BufTy).Contents (Elt Ideal) → (⟨S_, .f32⟩ : BufTy).Contents (Elt Ideal)),
      StableHlo.unary main_call0_v0 main_call0_v1 (broadcastInDim S50000 ![] bcast_S_S50000 : (⟨S_, .f32⟩ : BufTy).Contents (Elt Ideal) → (⟨S50000, .f32⟩ : BufTy).Contents (Elt Ideal)),
      StableHlo.binary main_call0_v1 main_v17 main_v18 (maximumf (F := Ideal) (s := S50000) (φ := .f32)) ] := rfl

/-- The second clip of the in-degree, likewise. -/
theorem clip1_plain : (hostOps1_1 : List (HloOp τ sig (Elt Ideal))) =
    [ StableHlo.unary main_cst_9 main_call1_v0 (id : (⟨S_, .f32⟩ : BufTy).Contents (Elt Ideal) → (⟨S_, .f32⟩ : BufTy).Contents (Elt Ideal)),
      StableHlo.unary main_call1_v0 main_call1_v1 (broadcastInDim S50000 ![] bcast_S_S50000 : (⟨S_, .f32⟩ : BufTy).Contents (Elt Ideal) → (⟨S50000, .f32⟩ : BufTy).Contents (Elt Ideal)),
      StableHlo.binary main_call1_v1 main_v39 main_v40 (maximumf (F := Ideal) (s := S50000) (φ := .f32)) ] := rfl

/-! ### The first call -/

/-- Its first operand is the mean of the in-neighbours' input features. -/
theorem first_mean (c : Dev nD) :
    (V3 m ρ c main_v21 : S50000x128.Idx → EReal)
      = mean128 (m ((c : Thread nD τ).loc main_arg0)) (m ((c : Thread nD τ).loc main_arg1)) := by
  dsimp only [V3, W3, W2]
  rw [clip0_plain]
  dsimp only [W1]
  after_results_simp <;> rfl

/-- Its second operand is the input features. -/
theorem first_own (c : Dev nD) :
    (V3 m ρ c main_arg0 : S50000x128.Idx → EReal) = m ((c : Thread nD τ).loc main_arg0) := by
  dsimp only [V3, W3, W2]
  rw [clip0_plain]
  dsimp only [W1]
  after_results_simp <;> rfl

/-- Its third operand is the transposed left weights. -/
theorem first_left (c : Dev nD) :
    (V3 m ρ c main_v22 : S128x256.Idx → EReal) = val_main_v22 (F := Ideal) (m ((c : Thread nD τ).loc main_arg2)) := by
  dsimp only [V3, W3, W2]
  rw [clip0_plain]
  dsimp only [W1]
  after_results_simp <;> rfl

/-- Its fourth operand is the transposed right weights. -/
theorem first_right (c : Dev nD) :
    (V3 m ρ c main_v23 : S128x256.Idx → EReal) = val_main_v27 (F := Ideal) (m ((c : Thread nD τ).loc main_arg4)) := by
  dsimp only [V3, W3, W2]
  rw [clip0_plain]
  dsimp only [W1]
  after_results_simp <;> rfl

/-- Its fifth operand is the bias reshaped to one row. -/
theorem first_bias (c : Dev nD) :
    (V3 m ρ c main_v24 : S1x256.Idx → EReal)
      = shapeCast S1x256 (m ((c : Thread nD τ).loc main_arg3) : S256.Idx → EReal) shapeCasts_S256_S1x256 := by
  dsimp only [V3, W3, W2]
  rw [clip0_plain]
  dsimp only [W1]
  after_results_simp <;> rfl

/-! ### The second call -/

/-- Its second operand is what the first call left in its result array. -/
theorem second_own (c : Dev nD) :
    (V7 m ρ c main_v25 : S50000x256.Idx → EReal) = V4 m ρ c main_v25 := by
  dsimp only [V7, W7, W6]
  rw [clip1_plain]
  dsimp only [W5]
  after_results_simp <;> rfl

/-- Its first operand is the mean of the in-neighbours' rows of that array. -/
theorem second_mean (c : Dev nD) :
    (V7 m ρ c main_v43 : S50000x256.Idx → EReal)
      = mean256 (V4 m ρ c main_v25) (m ((c : Thread nD τ).loc main_arg1)) := by
  dsimp only [V7, W7, W6]
  rw [clip1_plain]
  dsimp only [W5]
  after_results_simp
  rw [W4_of_ne m ρ c main_v1 (by decide), W4_of_ne m ρ c main_v3 (by decide)]
  dsimp only [W3, W2]
  rw [clip0_plain]
  dsimp only [W1]
  after_results_simp <;> rfl

/-- Its third operand is the transposed left weights of the second layer. -/
theorem second_left (c : Dev nD) :
    (V7 m ρ c main_v44 : S256x128.Idx → EReal) = val_main_v49 (F := Ideal) (m ((c : Thread nD τ).loc main_arg5)) := by
  dsimp only [V7, W7, W6]
  rw [clip1_plain]
  dsimp only [W5]
  after_results_simp
  rw [W4_of_ne m ρ c main_arg5 (by decide)]
  dsimp only [W3, W2]
  rw [clip0_plain]
  dsimp only [W1]
  after_results_simp <;> rfl

/-- Its fourth operand is the transposed right weights of the second layer. -/
theorem second_right (c : Dev nD) :
    (V7 m ρ c main_v45 : S256x128.Idx → EReal) = val_main_v54 (F := Ideal) (m ((c : Thread nD τ).loc main_arg7)) := by
  dsimp only [V7, W7, W6]
  rw [clip1_plain]
  dsimp only [W5]
  after_results_simp
  rw [W4_of_ne m ρ c main_arg7 (by decide)]
  dsimp only [W3, W2]
  rw [clip0_plain]
  dsimp only [W1]
  after_results_simp <;> rfl

/-- Its fifth operand is the second layer's bias reshaped to one row. -/
theorem second_bias (c : Dev nD) :
    (V7 m ρ c main_v46 : S1x128.Idx → EReal)
      = shapeCast S1x128 (m ((c : Thread nD τ).loc main_arg6) : S128.Idx → EReal) shapeCasts_S128_S1x128 := by
  dsimp only [V7, W7, W6]
  rw [clip1_plain]
  dsimp only [W5]
  after_results_simp
  rw [W4_of_ne m ρ c main_arg6 (by decide)]
  dsimp only [W3, W2]
  rw [clip0_plain]
  dsimp only [W1]
  after_results_simp <;> rfl

end Reads

end Cert.KernelIdeal.Entry

end
-- ==== Proof.KernelResult.lean ====
/-
  The idealized kernel's result array as the reference's function of the arguments.
  The first call ends with its result array at `layerRelu` of its five operand arrays; those are the reference's mean
  aggregation of the input features, the input features, the two transposed weight matrices and the bias, so the array is
  the reference's hidden features. The second call finds the mean aggregation of that array, the array itself, the second
  layer's transposed weights and bias, and ends with its result at `layer` of them: the reference's result.
-/
import proofs.«137551_j1090921693298_1_alg».proof.Proof.KernelBlocks1
import proofs.«137551_j1090921693298_1_alg».proof.Proof.KernelEntry

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.Sage
open Cert.ReferenceIdeal.Read (val_main_v30 val_main_v56)

variable (m : (ℓ : Loc nD τ sig) → Buf (Elt Ideal) ℓ) (ρ : Dev nD → PrngReg)

/-- Entry j of the first call's bias row is entry j of the bias. -/
theorem first_bias_entry (c : Dev nD) (j : Fin 256) :
    (V3 m ρ c main_v24 : S1x256.Idx → EReal) (ix2 0 j) = (m ((c : Thread nD τ).loc main_arg3) : S256.Idx → EReal) (ix1 j) := by
  rw [Entry.first_bias]; exact Entry.bias_row256 _ j

/-- Entry j of the second call's bias row is entry j of the second bias. -/
theorem second_bias_entry (c : Dev nD) (j : Fin 128) :
    (V7 m ρ c main_v46 : S1x128.Idx → EReal) (ix2 0 j) = (m ((c : Thread nD τ).loc main_arg6) : S128.Idx → EReal) (ix1 j) := by
  rw [Entry.second_bias]; exact Entry.bias_row128 _ j

/-- What the first call leaves in its result array is the reference's hidden features. -/
theorem hidden_eq (c : Dev nD) :
    (V4 m ρ c main_v25 : S50000x256.Idx → EReal)
      = val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have h1 : (V4 m ρ c main_v25 : S50000x256.Idx → EReal) = (dat0 (V3 m ρ) c).arrAt 5 cfg0.N := W4_arr m ρ c 5
  rw [h1, Blocks.final0 (V3 m ρ) c, Cert.ReferenceIdeal.Layers.hidden]
  unfold Blocks.whole0
  rw [Entry.first_mean, Entry.first_own, Entry.first_left, Entry.first_right, Entry.mean128_eq]
  exact congrArg (layerRelu (N := 50000) (K := 128) (M := 256) _ _ _ _) (funext fun j => first_bias_entry m ρ c j)

/-- What the second call leaves in its result array is the reference's result. -/
theorem result_eq (c : Dev nD) :
    (W8 m ρ c (Proc.devRef .tc main_v47) : S50000x128.Idx → EReal)
      = val_main_v56 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have h1 : (W8 m ρ c (Proc.devRef .tc main_v47) : S50000x128.Idx → EReal) = (dat1 (V7 m ρ) c).arrAt 5 cfg1.N := W8_arr m ρ c 5
  rw [h1, Blocks.final1 (V7 m ρ) c, Cert.ReferenceIdeal.Layers.output]
  unfold Blocks.whole1
  rw [Entry.second_mean, Entry.second_own, Entry.second_left, Entry.second_right, hidden_eq, Entry.mean256_eq,
    ← Cert.ReferenceIdeal.Layers.aggregated_hidden]
  exact congrArg (layer (N := 50000) (K := 256) (M := 128) _ _ _ _) (funext fun j => second_bias_entry m ρ c j)

end Cert.KernelIdeal.Result

end
-- ==== Proof.lean ====
/-
  The kernel is a two-layer graph convolution: each layer takes the mean of every node's in-neighbours' features
  (gather at the edges' sources, segment sum onto their targets, division by the in-degree clipped below at one) and
  returns  mean·WLᵀ + own·WRᵀ + b,  the first layer followed by the maximum with zero. The aggregation is done by host
  operations; each layer's two matrix products, the bias and the maximum by a pallas_call over 25 blocks of 2000 nodes.
  The reference computes the same aggregation with the same host operations and each layer as  (mean·WLᵀ + b) + own·WRᵀ.

  On the extended reals a change of float format is the identity and a matrix product is its plain sum, so a layer's
  entry (i, j) is  Σ_k mean(i,k)·WL(j,k) + Σ_k own(i,k)·WR(j,k) + b(j)  in the kernel and the same three terms with the
  bias in the middle in the reference: equal because addition of extended reals is commutative and associative. No
  entry need be finite, so the precondition is not used. The layers' operand arrays are, stage by stage, the same host
  operations of the same arguments in both programs; the second layer's are those operations of the first layer's result.

  The three frames are the generated ones (the reference's is its generated run with the result dropped); the ideal pass
  rewrote nothing, so the kernel's idealization is its own text.
-/
import proofs.«137551_j1090921693298_1_alg».proof.Defs
import proofs.«137551_j1090921693298_1_alg».proof.Proof.Gen.Kernel
import proofs.«137551_j1090921693298_1_alg».proof.Proof.Gen.Kernel.Skeleton
import proofs.«137551_j1090921693298_1_alg».proof.Proof.Gen.Kernel.Launch
import proofs.«137551_j1090921693298_1_alg».proof.Proof.Gen.Kernel.Points
import proofs.«137551_j1090921693298_1_alg».proof.Proof.Gen.Kernel.Frame
import proofs.«137551_j1090921693298_1_alg».proof.Proof.Gen.KernelIdeal
import proofs.«137551_j1090921693298_1_alg».proof.Proof.Gen.KernelIdeal.Skeleton
import proofs.«137551_j1090921693298_1_alg».proof.Proof.Gen.KernelIdeal.Launch
import proofs.«137551_j1090921693298_1_alg».proof.Proof.Gen.KernelIdeal.Points
import proofs.«137551_j1090921693298_1_alg».proof.Proof.Gen.KernelIdeal.Frame
import proofs.«137551_j1090921693298_1_alg».proof.Proof.Gen.ReferenceIdeal
import proofs.«137551_j1090921693298_1_alg».proof.Proof.Gen.ReferenceIdeal.Read
import proofs.«137551_j1090921693298_1_alg».proof.Proof.Gen.Pre_finite_inputs
import proofs.«137551_j1090921693298_1_alg».proof.Proof.KernelRun
import proofs.«137551_j1090921693298_1_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at the reference's last stage of the arguments. -/
theorem algebraic : Cert.algebraic_KernelIdeal_ReferenceIdeal := by
  intro m ρ m' ρ' _ hagree
  refine ⟨fun c => Cert.ReferenceIdeal.Read.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v56_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
